-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000x64 .f32) (main_arg2 : IVec S800000 32) (main_arg3 : IVec S800000 32) (main_arg4 : FVec F S192x256 .f32) (main_arg5 : FVec F S256 .f32) (main_arg6 : FVec F S256x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x256 .f32 := Host.absf main_arg4
  let main_cst_2 : FVec F S_ .f32 := constant S_ .f32 0x7F800000#32
  let main_v10 : FVec F S192x256 .f32 := broadcastInDim S192x256 ![] bcast_S_S192x256 main_cst_2
  let main_v11 : IVec S192x256 1 := cmpf .olt main_v9 main_v10
  let main_c_3 : IVec S_ 1 := constantI S_ 1 1#1
  let main_v12 : IVec S_ 1 := (fun x v => Host.reduce IntOp.andi x v reducesTo_S192x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S64x256 : Shape := ⟨2, ![64, 256]⟩
abbrev S5000x64 : Shape := ⟨2, ![5000, 64]⟩
abbrev S5000x256 : Shape := ⟨2, ![5000, 256]⟩
abbrev S1x256 : Shape := ⟨2, ![1, 256]⟩
abbrev S1x64 : Shape := ⟨2, ![1, 64]⟩

abbrev nBuf : Space → Nat
  | .hbm => 20
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S64x256, .f32⟩
  | .hbm, ⟨17, _⟩ => ⟨S64x256, .f32⟩
  | .hbm, ⟨18, _⟩ => ⟨S64x256, .f32⟩
  | .hbm, ⟨19, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S256, .f32⟩
  | .local _ .vmem, ⟨10, _⟩ => ⟨S256x64, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  slices_S192x256_S64x256_0_0 : S192x256.Slices ![0, 0] S64x256
  slices_S192x256_S64x256_64_0 : S192x256.Slices ![64, 0] S64x256
  slices_S192x256_S64x256_128_0 : S192x256.Slices ![128, 0] S64x256
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x64_S256x64_0_0 : ∀ a, (![0, 0] : Fin 2 → Nat) a + S256x64.size a ≤ S256x64.size a
  h_S256x64 : 0 < S256x64.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  scatter_S50000x64_S800000x1_S800000x64_1_0_0_1_wf : ScatterDims.WF S50000x64 S800000x1 S800000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S256x64.size a
  hwx0_7 : ∀ i : grid0.Coords, EltTy.bits .f32 = 32 ∨ (Rect.block (s := S256x64) S256x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S50000x64.size a
  hwx0_9 : ∀ i : grid0.Coords, EltTy.bits .f32 = 32 ∨ (Rect.block (s := S50000x64) S5000x64.size (cc0_transform_9 i) (hinb0_9 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v2) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S256x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S192x256 : Shape := ⟨2, ![192, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S50000x192 : Shape := ⟨2, ![50000, 192]⟩
abbrev S50000x256 : Shape := ⟨2, ![50000, 256]⟩
abbrev S1x256 : Shape := ⟨2, ![1, 256]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S192x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S50000x192, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S_, .f32⟩
  | .hbm, ⟨22, _⟩ => ⟨S50000x256, .f32⟩
  | .hbm, ⟨23, _⟩ => ⟨S50000x256, .f32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  concatenates_S50000x64_S50000x64_S50000x64_S50000x192_d1 : Shape.Concatenates [S50000x64, S50000x64, S50000x64] S50000x192 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  dot_S50000x192_S192x256_S50000x256_1_0_0_1_n_n_wf : DotDims.WF S50000x192 S192x256 S50000x256 [1] [0] [0] [1] [] []
  dot_S50000x256_S256x64_S50000x64_1_0_0_1_n_n_wf : DotDims.WF S50000x256 S256x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x192_S192x256_S50000x256_1_0_0_1_n_n : DotDims S50000x192 S192x256 S50000x256 where
  lhsContracting := [1]
  rhsContracting := [0]
  lhsNonContracting := [0]
  rhsNonContracting := [1]
  lhsBatch := []
  rhsBatch := []
  wf := dot_S50000x192_S192x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.MlpSpec.lean ====
/-
  The node update as ONE function of its arrays, index by index, on the extended reals.

  Every node i carries three rows of 64 numbers: the sum of the features of the edges that arrive at it, the sum of
  the features of the edges that leave it, and its own features. The first layer's weight matrix has 192 rows: rows
  0..63 meet the first row of numbers, rows 64..127 the second, rows 128..191 the third. So the hidden value at
  (i, k) is

      max (((Σ_l a(i,l)·W1(l,k) + Σ_l b(i,l)·W1(64+l,k)) + Σ_l n(i,l)·W1(128+l,k)) + c1(k)) 0

  and the result at (i, j) is Σ_k hidden(i,k)·W2(k,j) + c2(j).

  The one law this file proves is that a sum over the 192 rows is the sum of the three sums over a slab of 64 rows
  each (`sum_three_slabs`): it holds in every additive commutative monoid, so on the extended reals it asks nothing
  of the summands — no entry has to be finite.
-/
import Idealize.ShloMosaic.PureOps.Ideal
import Idealize.ShloMosaic.Lib.ValueIdx
import Mathlib.Algebra.BigOperators.Fin

noncomputable section

open scoped BigOperators

namespace Cert.MlpSpec

open Idealize.ShloMosaic Idealize.ShloMosaic.ValueIdx

/-- Row l of the first slab of the 192 weight rows. -/
abbrev slab0 (l : Fin 64) : Fin 192 := ⟨l.val, by omega⟩
/-- Row l of the second slab: row 64 + l. -/
abbrev slab1 (l : Fin 64) : Fin 192 := ⟨64 + l.val, by omega⟩
/-- Row l of the third slab: row 128 + l. -/
abbrev slab2 (l : Fin 64) : Fin 192 := ⟨128 + l.val, by omega⟩

/-- A sum over 192 rows is the sum over rows 0..63, plus the sum over rows 64..127, plus the sum over rows 128..191. -/
theorem sum_three_slabs {M : Type*} [AddCommMonoid M] (f : Fin 192 → M) :
    ∑ l : Fin 192, f l = ((∑ l : Fin 64, f (slab0 l)) + ∑ l : Fin 64, f (slab1 l)) + ∑ l : Fin 64, f (slab2 l) := by
  have h1 : ∑ l : Fin (128 + 64), f l
      = (∑ l : Fin 128, f (Fin.castAdd 64 l)) + ∑ l : Fin 64, f (Fin.natAdd 128 l) := Fin.sum_univ_add _
  have h2 : ∑ l : Fin (64 + 64), f (Fin.castAdd 64 l)
      = (∑ l : Fin 64, f (Fin.castAdd 64 (Fin.castAdd 64 l))) + ∑ l : Fin 64, f (Fin.castAdd 64 (Fin.natAdd 64 l)) :=
    Fin.sum_univ_add _
  exact h1.trans (congrArg (· + ∑ l : Fin 64, f (Fin.natAdd 128 l)) h2)

variable (a b n : (⟨2, ![50000, 64]⟩ : Shape).Idx → EReal) (w1 : (⟨2, ![192, 256]⟩ : Shape).Idx → EReal)
  (c1 : (⟨1, ![256]⟩ : Shape).Idx → EReal) (w2 : (⟨2, ![256, 64]⟩ : Shape).Idx → EReal)
  (c2 : (⟨1, ![64]⟩ : Shape).Idx → EReal)

/-- The hidden value of node i at unit k: the three rows of node i against the three slabs of W1, the bias, and
    the maximum with zero (the zero spelt as the f32 pattern both programs print). -/
def hidden (i : Fin 50000) (k : Fin 256) : EReal :=
  max ((((∑ l : Fin 64, a (ix2 i l) * w1 (ix2 (slab0 l) k)) + ∑ l : Fin 64, b (ix2 i l) * w1 (ix2 (slab1 l) k))
      + ∑ l : Fin 64, n (ix2 i l) * w1 (ix2 (slab2 l) k)) + c1 (ix1 k)) (Ideal.ofBits .f32 0x00000000#32)

/-- The updated features: at (i, j), the hidden row of node i against column j of W2, plus the second bias. -/
def update : (⟨2, ![50000, 64]⟩ : Shape).Idx → EReal := fun j =>
  (∑ k : Fin 256, hidden a b n w1 c1 (j 0) k * w2 (ix2 k (j 1))) + c2 (ix1 (j 1))

theorem update_apply (i : Fin 50000) (j : Fin 64) :
    update a b n w1 c1 w2 c2 (ix2 i j)
      = (∑ k : Fin 256, hidden a b n w1 c1 i k * w2 (ix2 k j)) + c2 (ix1 j) := rfl

end Cert.MlpSpec

end
-- ==== Proof.KernelBlock.lean ====
/-
  What the kernel body computes on ONE block of 5000 nodes, read at an index, at the ideal values.

  The body loads three blocks of rows (arrivals, departures, own features: 5000 × 64 each), the three slabs of the
  first weight matrix (64 × 256 each), the first bias (256), the second weight matrix (256 × 64) and the second bias
  (64). It narrows the matrices to bf16 — on the extended reals a change of format is the identity —, forms three
  products into a zero accumulator and adds them, adds the bias as a row repeated down the block, takes the maximum
  with zero, multiplies by the second matrix and adds the second bias row.

  A product into the zero accumulator read at (p, k) is the plain sum over the contracted coordinate; a row repeated
  down a block read at (p, k) is the row at k. So the block's value at (p, q) is the node update (MlpSpec) of row
  p of the block, whenever the loaded blocks are the corresponding rows and slabs of whole arrays (`block_update`).
-/
import proofs.«120866_j69346541961223_2_alg».proof.Proof.Gen.KernelIdeal.Skeleton
import proofs.«120866_j69346541961223_2_alg».proof.Proof.LibPlainMatmul
import proofs.«120866_j69346541961223_2_alg».proof.Proof.MlpSpec
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.MlpSpec

/-! ## The pieces of the body, each read at an index -/

/-- A block of rows against a slab of the first weight matrix, both narrowed to bf16, into the zero accumulator. -/
def prod1 (x : FVec Ideal S5000x64 .f32) (w : FVec Ideal S64x256 .f32) : FVec Ideal S5000x256 .f32 :=
  matmul dot_S5000x64_S64x256_S5000x256_1_0_0_1_n_n none (truncf .bf16 x bitsLt_bf16_f32) (truncf .bf16 w bitsLt_bf16_f32)
    (constant S5000x256 .f32 0x00000000#32)

/-- At (p, k): the sum over the 64 columns of row p against column k of the slab. -/
theorem prod1_apply (x : FVec Ideal S5000x64 .f32) (w : FVec Ideal S64x256 .f32) (p : Fin 5000) (k : Fin 256) :
    prod1 x w (ix2 p k) = ∑ l : Fin 64, x (ix2 p l) * w (ix2 l k) :=
  PlainMatmul.plainMatmul_apply (M := 5000) (K := 64) (N := 256) none
    (truncf .bf16 x bitsLt_bf16_f32) (truncf .bf16 w bitsLt_bf16_f32) p k

/-- The hidden block against the second weight matrix, both narrowed to bf16, into the zero accumulator. -/
def prod2 (h : FVec Ideal S5000x256 .f32) (w : FVec Ideal S256x64 .f32) : FVec Ideal S5000x64 .f32 :=
  matmul dot_S5000x256_S256x64_S5000x64_1_0_0_1_n_n none (truncf .bf16 h bitsLt_bf16_f32) (truncf .bf16 w bitsLt_bf16_f32)
    (constant S5000x64 .f32 0x00000000#32)

/-- At (p, q): the sum over the 256 hidden units of row p against column q. -/
theorem prod2_apply (h : FVec Ideal S5000x256 .f32) (w : FVec Ideal S256x64 .f32) (p : Fin 5000) (q : Fin 64) :
    prod2 h w (ix2 p q) = ∑ k : Fin 256, h (ix2 p k) * w (ix2 k q) :=
  PlainMatmul.plainMatmul_apply (M := 5000) (K := 256) (N := 64) none
    (truncf .bf16 h bitsLt_bf16_f32) (truncf .bf16 w bitsLt_bf16_f32) p q

/-- The first bias laid as one row and repeated down the 5000 rows of the block. -/
def biasRows1 (c : FVec Ideal S256 .f32) : FVec Ideal S5000x256 .f32 :=
  broadcastTo S5000x256 (shapeCast S1x256 c shapeCasts_S256_S1x256) broadcasts_S1x256_S5000x256

theorem biasRows1_apply (c : FVec Ideal S256 .f32) (p : Fin 5000) (k : Fin 256) : biasRows1 c (ix2 p k) = c (ix1 k) :=
  (broadcastTo_1b_ab_apply _ broadcasts_S1x256_S5000x256 p k).trans (shapeCast_a_1a_apply c shapeCasts_S256_S1x256 0 k)

/-- The second bias laid as one row and repeated down the block. -/
def biasRows2 (c : FVec Ideal S64 .f32) : FVec Ideal S5000x64 .f32 :=
  broadcastTo S5000x64 (shapeCast S1x64 c shapeCasts_S64_S1x64) broadcasts_S1x64_S5000x64

theorem biasRows2_apply (c : FVec Ideal S64 .f32) (p : Fin 5000) (q : Fin 64) : biasRows2 c (ix2 p q) = c (ix1 q) :=
  (broadcastTo_1b_ab_apply _ broadcasts_S1x64_S5000x64 p q).trans (shapeCast_a_1a_apply c shapeCasts_S64_S1x64 0 q)

/-- The hidden block: the three products added in the body's order, the bias rows, the maximum with zero. -/
def hid (x0 x1 x2 : FVec Ideal S5000x64 .f32) (x3 x4 x5 : FVec Ideal S64x256 .f32) (x6 : FVec Ideal S256 .f32) :
    FVec Ideal S5000x256 .f32 :=
  maximumf (addf (addf (addf (prod1 x0 x3) (prod1 x1 x4)) (prod1 x2 x5)) (biasRows1 x6))
    (broadcast S5000x256 (Scalar.ofBits .f32 0x00000000#32))

theorem hid_apply (x0 x1 x2 : FVec Ideal S5000x64 .f32) (x3 x4 x5 : FVec Ideal S64x256 .f32) (x6 : FVec Ideal S256 .f32)
    (p : Fin 5000) (k : Fin 256) :
    hid x0 x1 x2 x3 x4 x5 x6 (ix2 p k)
      = max ((((∑ l : Fin 64, x0 (ix2 p l) * x3 (ix2 l k)) + ∑ l : Fin 64, x1 (ix2 p l) * x4 (ix2 l k))
          + ∑ l : Fin 64, x2 (ix2 p l) * x5 (ix2 l k)) + x6 (ix1 k)) (Ideal.ofBits .f32 0x00000000#32) := by
  show max (((prod1 x0 x3 (ix2 p k) + prod1 x1 x4 (ix2 p k)) + prod1 x2 x5 (ix2 p k)) + biasRows1 x6 (ix2 p k))
      (Ideal.ofBits .f32 0x00000000#32) = _
  rw [prod1_apply, prod1_apply, prod1_apply, biasRows1_apply]

/-! ## The body's payload is these pieces -/

/-- The body's one stored value, as the pieces above of its nine loads (the shape casts it applies to some loads
    keep the shape). -/
theorem pay_eq (x0 x1 x2 : Vec Ideal S5000x64 .f32) (x3 x4 x5 : Vec Ideal S64x256 .f32) (x7 : Vec Ideal S256x64 .f32)
    (x6 : Vec Ideal S256 .f32) (x8 : Vec Ideal S64 .f32) :
    k0_pay1 x0 x1 x2 x3 x4 x5 x7 x6 x8
      = addf (prod2 (hid (shapeCast S5000x64 x0 shapeCasts_S5000x64_S5000x64) (shapeCast S5000x64 x1 shapeCasts_S5000x64_S5000x64) x2
          (shapeCast S64x256 x3 shapeCasts_S64x256_S64x256) (shapeCast S64x256 x4 shapeCasts_S64x256_S64x256)
          (shapeCast S64x256 x5 shapeCasts_S64x256_S64x256) x6) x7) (biasRows2 x8) := rfl

/-- The payload at (p, q) of the block. -/
theorem pay_apply (x0 x1 x2 : Vec Ideal S5000x64 .f32) (x3 x4 x5 : Vec Ideal S64x256 .f32) (x7 : Vec Ideal S256x64 .f32)
    (x6 : Vec Ideal S256 .f32) (x8 : Vec Ideal S64 .f32) (p : Fin 5000) (q : Fin 64) :
    k0_pay1 x0 x1 x2 x3 x4 x5 x7 x6 x8 (ix2 p q)
      = (∑ k : Fin 256, max ((((∑ l : Fin 64, x0 (ix2 p l) * x3 (ix2 l k)) + ∑ l : Fin 64, x1 (ix2 p l) * x4 (ix2 l k))
            + ∑ l : Fin 64, x2 (ix2 p l) * x5 (ix2 l k)) + x6 (ix1 k)) (Ideal.ofBits .f32 0x00000000#32) * x7 (ix2 k q))
          + x8 (ix1 q) := by
  rw [pay_eq]
  simp only [shapeCast_self]
  show prod2 _ x7 (ix2 p q) + biasRows2 x8 (ix2 p q) = _
  rw [prod2_apply, biasRows2_apply]
  simp only [hid_apply]

/-! ## A block of the node update -/

/-- Row p of block t, when 50000 rows are cut into 10 blocks of 5000. -/
abbrev blockRow (t : Nat) (ht : t < 10) (p : Fin 5000) : Fin 50000 := ⟨t * 5000 + p.val, by omega⟩

/-- If the three loaded row blocks are rows t·5000 .. t·5000+4999 of three arrays, the three loaded slabs are the
    three slabs of one 192-row weight matrix, and the other loads are whole arrays, the body's value at (p, q) is the
    node update of those arrays at (t·5000 + p, q). -/
theorem block_update (A B N : (⟨2, ![50000, 64]⟩ : Shape).Idx → EReal) (W1 : (⟨2, ![192, 256]⟩ : Shape).Idx → EReal)
    (c1 : (⟨1, ![256]⟩ : Shape).Idx → EReal) (W2 : (⟨2, ![256, 64]⟩ : Shape).Idx → EReal)
    (c2 : (⟨1, ![64]⟩ : Shape).Idx → EReal) (t : Nat) (ht : t < 10)
    (x0 x1 x2 : Vec Ideal S5000x64 .f32) (x3 x4 x5 : Vec Ideal S64x256 .f32) (x7 : Vec Ideal S256x64 .f32)
    (x6 : Vec Ideal S256 .f32) (x8 : Vec Ideal S64 .f32)
    (h0 : ∀ (p : Fin 5000) (l : Fin 64), x0 (ix2 p l) = A (ix2 (blockRow t ht p) l))
    (h1 : ∀ (p : Fin 5000) (l : Fin 64), x1 (ix2 p l) = B (ix2 (blockRow t ht p) l))
    (h2 : ∀ (p : Fin 5000) (l : Fin 64), x2 (ix2 p l) = N (ix2 (blockRow t ht p) l))
    (h3 : ∀ (l : Fin 64) (k : Fin 256), x3 (ix2 l k) = W1 (ix2 (slab0 l) k))
    (h4 : ∀ (l : Fin 64) (k : Fin 256), x4 (ix2 l k) = W1 (ix2 (slab1 l) k))
    (h5 : ∀ (l : Fin 64) (k : Fin 256), x5 (ix2 l k) = W1 (ix2 (slab2 l) k))
    (h6 : ∀ k : Fin 256, x6 (ix1 k) = c1 (ix1 k))
    (h7 : ∀ (k : Fin 256) (q : Fin 64), x7 (ix2 k q) = W2 (ix2 k q))
    (h8 : ∀ q : Fin 64, x8 (ix1 q) = c2 (ix1 q)) (p : Fin 5000) (q : Fin 64) :
    k0_pay1 x0 x1 x2 x3 x4 x5 x7 x6 x8 (ix2 p q) = update A B N W1 c1 W2 c2 (ix2 (blockRow t ht p) q) := by
  rw [pay_apply, update_apply]
  unfold Cert.MlpSpec.hidden
  simp only [h0, h1, h2, h3, h4, h5, h6, h7, h8]

end Cert.KernelIdeal.Block

end
-- ==== Proof.KernelValue.lean ====
/-
  The kernel's result array after the run is the node update (MlpSpec) of its arguments, at the ideal values.

  Before the one region the host part of the kernel forms five arrays: the edge features summed by receiver and by
  sender (two scatter-additions into zeros, kept as opaque arrays `summed`) and the three slabs of 64 rows of the first
  weight matrix (rows 0.., 64.., 128..). The region runs ten grid points; point t reads rows t·5000 .. t·5000+4999 of
  the two summed arrays and of the node features, the three slabs, both biases and the second matrix whole, and
  writes back rows t·5000 .. t·5000+4999 of the result.

  So what point t writes back is block t of the node update (`flushed_eq`, from `Block.block_update`), the ten
  blocks cover the 50000 rows (row r lies in block r / 5000: `cover`), and the array ends holding the node update
  everywhere (`final`, `run`).
-/
import proofs.«120866_j69346541961223_2_alg».proof.Proof.Gen.KernelIdeal.Value
import proofs.«120866_j69346541961223_2_alg».proof.Proof.KernelBlock
import Idealize.ShloMosaic.Lib.StableHlo.Run

set_option maxRecDepth 16384

noncomputable section

open scoped BigOperators

namespace Cert.KernelIdeal.NodeUpdate

open Cert.KernelIdeal Cert.KernelIdeal.Gen Cert.KernelIdeal.Block Idealize.ShloMosaic Idealize.ShloMosaic.TcCoe
  Idealize.ShloMosaic.ValueIdx Idealize.SL.Sem Idealize.ShloMosaic.StableHlo Cert.MlpSpec
open Idealize.ShloMosaic.Pipeline (Dat)

variable (m : (ℓ : Loc nD τ sig) → Buf (Elt Ideal) ℓ) (ρ : Dev nD → PrngReg)

/-! ## What the host part leaves for the region -/

/-- The edge features summed into 50000 buckets by an index array: a scatter-addition into zeros. -/
def summed (x1 : (⟨S800000x64, .f32⟩ : BufTy).Contents (Elt Ideal)) (ids : (⟨S800000, .i32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 ids) x1

/-- The region finds the features summed by receiver in its first operand's array. -/
theorem V_byReceiver (c : Dev nD) :
    (V m c main_v2 : S50000x64.Idx → EReal)
      = summed (m ((c : Thread nD τ).loc main_arg1)) (m ((c : Thread nD τ).loc main_arg3)) := by
  dsimp only [Gen.V, Gen.hostOps0]; after_results <;> rfl

/-- and the features summed by sender in its second. -/
theorem V_bySender (c : Dev nD) :
    (V m c main_v5 : S50000x64.Idx → EReal)
      = summed (m ((c : Thread nD τ).loc main_arg1)) (m ((c : Thread nD τ).loc main_arg2)) := by
  dsimp only [Gen.V, Gen.hostOps0]; after_results <;> rfl

/-- The three slabs of the first weight matrix, as slices of it. -/
theorem V_slab0 (c : Dev nD) :
    (V m c main_v6 : S64x256.Idx → EReal)
      = extractStridedSlice S64x256 ![0, 0] (m ((c : Thread nD τ).loc main_arg4)) slices_S192x256_S64x256_0_0 := by
  dsimp only [Gen.V, Gen.hostOps0]; after_results <;> rfl

theorem V_slab1 (c : Dev nD) :
    (V m c main_v7 : S64x256.Idx → EReal)
      = extractStridedSlice S64x256 ![64, 0] (m ((c : Thread nD τ).loc main_arg4)) slices_S192x256_S64x256_64_0 := by
  dsimp only [Gen.V, Gen.hostOps0]; after_results <;> rfl

theorem V_slab2 (c : Dev nD) :
    (V m c main_v8 : S64x256.Idx → EReal)
      = extractStridedSlice S64x256 ![128, 0] (m ((c : Thread nD τ).loc main_arg4)) slices_S192x256_S64x256_128_0 := by
  dsimp only [Gen.V, Gen.hostOps0]; after_results <;> rfl

/-- The result the kernel is to leave: the node update of the two summed arrays, the node features, the weights and
    the biases, all as launched. -/
def result (c : Dev nD) : S50000x64.Idx → EReal :=
  update (summed (m ((c : Thread nD τ).loc main_arg1)) (m ((c : Thread nD τ).loc main_arg3)))
    (summed (m ((c : Thread nD τ).loc main_arg1)) (m ((c : Thread nD τ).loc main_arg2)))
    (m ((c : Thread nD τ).loc main_arg0)) (m ((c : Thread nD τ).loc main_arg4)) (m ((c : Thread nD τ).loc main_arg5))
    (m ((c : Thread nD τ).loc main_arg6)) (m ((c : Thread nD τ).loc main_arg7))

/-! ## The printed index maps, over the ten grid points -/

/-- The three row windows and the output window sit at block (t, 0); the six whole windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

theorem lt_ten (t : Fin cfg0.N) : t.val < 10 := Nat.lt_of_lt_of_eq t.isLt (N_0 : cfg0.N = 10)

/-! ## Each input block, read at an index -/

/-! Each lemma has three parts: where the block's index lands in the array (an arithmetic fact about the printed
    index map), the block read off an arbitrary array, and the array the region finds there. -/

theorem emb_rows0 (t : Fin cfg0.N) (p : Fin 5000) (l : Fin 64) :
    ((cfg0.win 0).blk t).view.emb (ix2 p l) = ix2 (blockRow t.val (lt_ten t) p) l := by
  obtain ⟨e0, e1, -⟩ := idx_facts t
  refine funext fun a => Fin.ext ?_
  match a with
  | ⟨0, _⟩ => show win0_0.index t (0 : Fin 2) * 5000 + 1 * p.val = t.val * 5000 + p.val; rw [e0]; omega
  | ⟨1, _⟩ => show win0_0.index t (1 : Fin 2) * 64 + 1 * l.val = l.val; rw [e1]; omega

/-- Block t of row window 0, read off ANY array: rows t·5000 .. t·5000+4999. -/
theorem read_rows0 (c : Dev nD) (t : Fin cfg0.N) (X : Buf (Elt Ideal) ((c : Thread nD τ).loc (Pipeline.arrRef spec0 0)))
    (p : Fin 5000) (l : Fin 64) :
    ((cfg0.win 0).blk t).view.read (Elt Ideal) X (ix2 p l) = X (ix2 (blockRow t.val (lt_ten t) p) l) :=
  congrArg X (emb_rows0 t p l)

theorem byReceiver_rows (c : Dev nD) (t : Fin cfg0.N) (p : Fin 5000) (l : Fin 64) :
    (iblk m c 0 t : Vec Ideal S5000x64 .f32) (ix2 p l)
      = summed (m ((c : Thread nD τ).loc main_arg1)) (m ((c : Thread nD τ).loc main_arg3)) (ix2 (blockRow t.val (lt_ten t) p) l) :=
  (read_rows0 c t (V m c (Pipeline.arrRef spec0 0)) p l).trans (congrFun (V_byReceiver m c) _)

theorem emb_rows1 (t : Fin cfg0.N) (p : Fin 5000) (l : Fin 64) :
    ((cfg0.win 1).blk t).view.emb (ix2 p l) = ix2 (blockRow t.val (lt_ten t) p) l := by
  obtain ⟨-, -, e0, e1, -⟩ := idx_facts t
  refine funext fun a => Fin.ext ?_
  match a with
  | ⟨0, _⟩ => show win0_1.index t (0 : Fin 2) * 5000 + 1 * p.val = t.val * 5000 + p.val; rw [e0]; omega
  | ⟨1, _⟩ => show win0_1.index t (1 : Fin 2) * 64 + 1 * l.val = l.val; rw [e1]; omega

/-- Block t of row window 1, read off ANY array: rows t·5000 .. t·5000+4999. -/
theorem read_rows1 (c : Dev nD) (t : Fin cfg0.N) (X : Buf (Elt Ideal) ((c : Thread nD τ).loc (Pipeline.arrRef spec0 1)))
    (p : Fin 5000) (l : Fin 64) :
    ((cfg0.win 1).blk t).view.read (Elt Ideal) X (ix2 p l) = X (ix2 (blockRow t.val (lt_ten t) p) l) :=
  congrArg X (emb_rows1 t p l)

theorem bySender_rows (c : Dev nD) (t : Fin cfg0.N) (p : Fin 5000) (l : Fin 64) :
    (iblk m c 1 t : Vec Ideal S5000x64 .f32) (ix2 p l)
      = summed (m ((c : Thread nD τ).loc main_arg1)) (m ((c : Thread nD τ).loc main_arg2)) (ix2 (blockRow t.val (lt_ten t) p) l) :=
  (read_rows1 c t (V m c (Pipeline.arrRef spec0 1)) p l).trans (congrFun (V_bySender m c) _)

theorem emb_rows2 (t : Fin cfg0.N) (p : Fin 5000) (l : Fin 64) :
    ((cfg0.win 2).blk t).view.emb (ix2 p l) = ix2 (blockRow t.val (lt_ten t) p) l := by
  obtain ⟨-, -, -, -, e0, e1, -⟩ := idx_facts t
  refine funext fun a => Fin.ext ?_
  match a with
  | ⟨0, _⟩ => show win0_2.index t (0 : Fin 2) * 5000 + 1 * p.val = t.val * 5000 + p.val; rw [e0]; omega
  | ⟨1, _⟩ => show win0_2.index t (1 : Fin 2) * 64 + 1 * l.val = l.val; rw [e1]; omega

/-- Block t of row window 2, read off ANY array: rows t·5000 .. t·5000+4999. -/
theorem read_rows2 (c : Dev nD) (t : Fin cfg0.N) (X : Buf (Elt Ideal) ((c : Thread nD τ).loc (Pipeline.arrRef spec0 2)))
    (p : Fin 5000) (l : Fin 64) :
    ((cfg0.win 2).blk t).view.read (Elt Ideal) X (ix2 p l) = X (ix2 (blockRow t.val (lt_ten t) p) l) :=
  congrArg X (emb_rows2 t p l)

theorem node_rows (c : Dev nD) (t : Fin cfg0.N) (p : Fin 5000) (l : Fin 64) :
    (iblk m c 2 t : Vec Ideal S5000x64 .f32) (ix2 p l)
      = (m ((c : Thread nD τ).loc main_arg0) : S50000x64.Idx → EReal) (ix2 (blockRow t.val (lt_ten t) p) l) :=
  (read_rows2 c t (V m c (Pipeline.arrRef spec0 2)) p l).trans (congrFun (V_main_arg0 m c) _)

theorem emb_slab0 (t : Fin cfg0.N) (l : Fin 64) (k : Fin 256) :
    ((cfg0.win 3).blk t).view.emb (ix2 l k) = ix2 l k := by
  obtain ⟨-, -, -, -, -, -, e0, e1, -⟩ := idx_facts t
  refine funext fun a => Fin.ext ?_
  match a with
  | ⟨0, _⟩ => show win0_3.index t (0 : Fin 2) * 64 + 1 * l.val = l.val; rw [e0]; omega
  | ⟨1, _⟩ => show win0_3.index t (1 : Fin 2) * 256 + 1 * k.val = k.val; rw [e1]; omega

/-- The one block of slab window 3, read off ANY array: the whole array. -/
theorem read_slab0 (c : Dev nD) (t : Fin cfg0.N) (X : Buf (Elt Ideal) ((c : Thread nD τ).loc (Pipeline.arrRef spec0 3)))
    (l : Fin 64) (k : Fin 256) :
    ((cfg0.win 3).blk t).view.read (Elt Ideal) X (ix2 l k) = X (ix2 l k) :=
  congrArg X (emb_slab0 t l k)

/-- Row l of the slab is row 0 + l of the first weight matrix. -/
theorem slice_slab0 (w1 : S192x256.Idx → EReal) (l : Fin 64) (k : Fin 256) :
    extractStridedSlice S64x256 ![0, 0] w1 slices_S192x256_S64x256_0_0 (ix2 l k) = w1 (ix2 (slab0 l) k) :=
  extractStridedSlice_apply _ _ _ _ _ (fun a => by
    match a with
    | ⟨0, _⟩ => exact (Nat.zero_add _).symm
    | ⟨1, _⟩ => exact (Nat.zero_add _).symm)

theorem slab0_at (c : Dev nD) (t : Fin cfg0.N) (l : Fin 64) (k : Fin 256) :
    (iblk m c 3 t : Vec Ideal S64x256 .f32) (ix2 l k)
      = (m ((c : Thread nD τ).loc main_arg4) : S192x256.Idx → EReal) (ix2 (slab0 l) k) :=
  (read_slab0 c t (V m c (Pipeline.arrRef spec0 3)) l k).trans
    ((congrFun (V_slab0 m c) (ix2 l k)).trans (slice_slab0 _ l k))

theorem emb_slab1 (t : Fin cfg0.N) (l : Fin 64) (k : Fin 256) :
    ((cfg0.win 4).blk t).view.emb (ix2 l k) = ix2 l k := by
  obtain ⟨-, -, -, -, -, -, -, -, e0, e1, -⟩ := idx_facts t
  refine funext fun a => Fin.ext ?_
  match a with
  | ⟨0, _⟩ => show win0_4.index t (0 : Fin 2) * 64 + 1 * l.val = l.val; rw [e0]; omega
  | ⟨1, _⟩ => show win0_4.index t (1 : Fin 2) * 256 + 1 * k.val = k.val; rw [e1]; omega

/-- The one block of slab window 4, read off ANY array: the whole array. -/
theorem read_slab1 (c : Dev nD) (t : Fin cfg0.N) (X : Buf (Elt Ideal) ((c : Thread nD τ).loc (Pipeline.arrRef spec0 4)))
    (l : Fin 64) (k : Fin 256) :
    ((cfg0.win 4).blk t).view.read (Elt Ideal) X (ix2 l k) = X (ix2 l k) :=
  congrArg X (emb_slab1 t l k)

/-- Row l of the slab is row 64 + l of the first weight matrix. -/
theorem slice_slab1 (w1 : S192x256.Idx → EReal) (l : Fin 64) (k : Fin 256) :
    extractStridedSlice S64x256 ![64, 0] w1 slices_S192x256_S64x256_64_0 (ix2 l k) = w1 (ix2 (slab1 l) k) :=
  extractStridedSlice_apply _ _ _ _ _ (fun a => by
    match a with
    | ⟨0, _⟩ => exact rfl
    | ⟨1, _⟩ => exact (Nat.zero_add _).symm)

theorem slab1_at (c : Dev nD) (t : Fin cfg0.N) (l : Fin 64) (k : Fin 256) :
    (iblk m c 4 t : Vec Ideal S64x256 .f32) (ix2 l k)
      = (m ((c : Thread nD τ).loc main_arg4) : S192x256.Idx → EReal) (ix2 (slab1 l) k) :=
  (read_slab1 c t (V m c (Pipeline.arrRef spec0 4)) l k).trans
    ((congrFun (V_slab1 m c) (ix2 l k)).trans (slice_slab1 _ l k))

theorem emb_slab2 (t : Fin cfg0.N) (l : Fin 64) (k : Fin 256) :
    ((cfg0.win 5).blk t).view.emb (ix2 l k) = ix2 l k := by
  obtain ⟨-, -, -, -, -, -, -, -, -, -, e0, e1, -⟩ := idx_facts t
  refine funext fun a => Fin.ext ?_
  match a with
  | ⟨0, _⟩ => show win0_5.index t (0 : Fin 2) * 64 + 1 * l.val = l.val; rw [e0]; omega
  | ⟨1, _⟩ => show win0_5.index t (1 : Fin 2) * 256 + 1 * k.val = k.val; rw [e1]; omega

/-- The one block of slab window 5, read off ANY array: the whole array. -/
theorem read_slab2 (c : Dev nD) (t : Fin cfg0.N) (X : Buf (Elt Ideal) ((c : Thread nD τ).loc (Pipeline.arrRef spec0 5)))
    (l : Fin 64) (k : Fin 256) :
    ((cfg0.win 5).blk t).view.read (Elt Ideal) X (ix2 l k) = X (ix2 l k) :=
  congrArg X (emb_slab2 t l k)

/-- Row l of the slab is row 128 + l of the first weight matrix. -/
theorem slice_slab2 (w1 : S192x256.Idx → EReal) (l : Fin 64) (k : Fin 256) :
    extractStridedSlice S64x256 ![128, 0] w1 slices_S192x256_S64x256_128_0 (ix2 l k) = w1 (ix2 (slab2 l) k) :=
  extractStridedSlice_apply _ _ _ _ _ (fun a => by
    match a with
    | ⟨0, _⟩ => exact rfl
    | ⟨1, _⟩ => exact (Nat.zero_add _).symm)

theorem slab2_at (c : Dev nD) (t : Fin cfg0.N) (l : Fin 64) (k : Fin 256) :
    (iblk m c 5 t : Vec Ideal S64x256 .f32) (ix2 l k)
      = (m ((c : Thread nD τ).loc main_arg4) : S192x256.Idx → EReal) (ix2 (slab2 l) k) :=
  (read_slab2 c t (V m c (Pipeline.arrRef spec0 5)) l k).trans
    ((congrFun (V_slab2 m c) (ix2 l k)).trans (slice_slab2 _ l k))

theorem emb_bias1 (t : Fin cfg0.N) (k : Fin 256) : ((cfg0.win 6).blk t).view.emb (ix1 k) = ix1 k := by
  obtain ⟨-, -, -, -, -, -, -, -, -, -, -, -, e0, -⟩ := idx_facts t
  refine funext fun a => Fin.ext ?_
  match a with
  | ⟨0, _⟩ => show win0_6.index t (0 : Fin 1) * 256 + 1 * k.val = k.val; rw [e0]; omega

theorem read_bias1 (c : Dev nD) (t : Fin cfg0.N) (X : Buf (Elt Ideal) ((c : Thread nD τ).loc (Pipeline.arrRef spec0 6)))
    (k : Fin 256) : ((cfg0.win 6).blk t).view.read (Elt Ideal) X (ix1 k) = X (ix1 k) :=
  congrArg X (emb_bias1 t k)

theorem bias1_at (c : Dev nD) (t : Fin cfg0.N) (k : Fin 256) :
    (iblk m c 6 t : Vec Ideal S256 .f32) (ix1 k) = (m ((c : Thread nD τ).loc main_arg5) : S256.Idx → EReal) (ix1 k) :=
  (read_bias1 c t (V m c (Pipeline.arrRef spec0 6)) k).trans (congrFun (V_main_arg5 m c) _)

theorem emb_weight2 (t : Fin cfg0.N) (k : Fin 256) (q : Fin 64) : ((cfg0.win 7).blk t).view.emb (ix2 k q) = ix2 k q := by
  obtain ⟨-, -, -, -, -, -, -, -, -, -, -, -, -, e0, e1, -⟩ := idx_facts t
  refine funext fun a => Fin.ext ?_
  match a with
  | ⟨0, _⟩ => show win0_7.index t (0 : Fin 2) * 256 + 1 * k.val = k.val; rw [e0]; omega
  | ⟨1, _⟩ => show win0_7.index t (1 : Fin 2) * 64 + 1 * q.val = q.val; rw [e1]; omega

theorem read_weight2 (c : Dev nD) (t : Fin cfg0.N) (X : Buf (Elt Ideal) ((c : Thread nD τ).loc (Pipeline.arrRef spec0 7)))
    (k : Fin 256) (q : Fin 64) : ((cfg0.win 7).blk t).view.read (Elt Ideal) X (ix2 k q) = X (ix2 k q) :=
  congrArg X (emb_weight2 t k q)

theorem weight2_at (c : Dev nD) (t : Fin cfg0.N) (k : Fin 256) (q : Fin 64) :
    (iblk m c 7 t : Vec Ideal S256x64 .f32) (ix2 k q) = (m ((c : Thread nD τ).loc main_arg6) : S256x64.Idx → EReal) (ix2 k q) :=
  (read_weight2 c t (V m c (Pipeline.arrRef spec0 7)) k q).trans (congrFun (V_main_arg6 m c) _)

theorem emb_bias2 (t : Fin cfg0.N) (q : Fin 64) : ((cfg0.win 8).blk t).view.emb (ix1 q) = ix1 q := by
  obtain ⟨-, -, -, -, -, -, -, -, -, -, -, -, -, -, -, e0, -⟩ := idx_facts t
  refine funext fun a => Fin.ext ?_
  match a with
  | ⟨0, _⟩ => show win0_8.index t (0 : Fin 1) * 64 + 1 * q.val = q.val; rw [e0]; omega

theorem read_bias2 (c : Dev nD) (t : Fin cfg0.N) (X : Buf (Elt Ideal) ((c : Thread nD τ).loc (Pipeline.arrRef spec0 8)))
    (q : Fin 64) : ((cfg0.win 8).blk t).view.read (Elt Ideal) X (ix1 q) = X (ix1 q) :=
  congrArg X (emb_bias2 t q)

theorem bias2_at (c : Dev nD) (t : Fin cfg0.N) (q : Fin 64) :
    (iblk m c 8 t : Vec Ideal S64 .f32) (ix1 q) = (m ((c : Thread nD τ).loc main_arg7) : S64.Idx → EReal) (ix1 q) :=
  (read_bias2 c t (V m c (Pipeline.arrRef spec0 8)) q).trans (congrFun (V_main_arg7 m c) _)

/-! ## What each point writes back, and the whole array -/

theorem hz2 : (![0, 0] : Fin 2 → Nat) = fun _ => 0 := funext fun a => by fin_cases a <;> rfl
theorem hz1 : (![0] : Fin 1 → Nat) = fun _ => 0 := funext fun a => by fin_cases a; rfl

/-- The output window is never cut at the array's end: what a point writes back is its whole block. -/
theorem cut_out (t : Fin cfg0.N) (X : S5000x64.Idx → EReal) : (cfg0.win 9).cut (grid0.coords t) X = X := rfl

theorem emb_out (t : Fin cfg0.N) (p : Fin 5000) (q : Fin 64) :
    ((cfg0.win 9).blk t).view.emb (ix2 p q) = ix2 (blockRow t.val (lt_ten t) p) q := by
  obtain ⟨-, -, -, -, -, -, -, -, -, -, -, -, -, -, -, -, e0, e1⟩ := idx_facts t
  refine funext fun a => Fin.ext ?_
  match a with
  | ⟨0, _⟩ => show win0_9.index t (0 : Fin 2) * 5000 + 1 * p.val = t.val * 5000 + p.val; rw [e0]; omega
  | ⟨1, _⟩ => show win0_9.index t (1 : Fin 2) * 64 + 1 * q.val = q.val; rw [e1]; omega

/-- Block t of the output window, read off ANY array: rows t·5000 .. t·5000+4999. -/
theorem read_out (c : Dev nD) (t : Fin cfg0.N) (X : Buf (Elt Ideal) ((c : Thread nD τ).loc (Pipeline.arrRef spec0 9)))
    (p : Fin 5000) (q : Fin 64) :
    ((cfg0.win 9).blk t).view.read (Elt Ideal) X (ix2 p q) = X (ix2 (blockRow t.val (lt_ten t) p) q) :=
  congrArg X (emb_out t p q)

/-- The body's result on the blocks of point t is its one stored value of those blocks. -/
theorem out_eq_pay (c : Dev nD) (t : Fin cfg0.N) :
    out0_9 (iblk m c 0 t) (iblk m c 1 t) (iblk m c 2 t) (iblk m c 3 t) (iblk m c 4 t) (iblk m c 5 t) (iblk m c 6 t)
        (iblk m c 7 t) (iblk m c 8 t)
      = k0_pay1 (iblk m c 0 t) (iblk m c 1 t) (iblk m c 2 t) (iblk m c 3 t) (iblk m c 4 t) (iblk m c 5 t) (iblk m c 7 t)
        (iblk m c 6 t) (iblk m c 8 t) := by
  unfold Gen.out0_9
  rw [View.canon_unit_zero hz2]
  simp only [View.ld_unit_zero (S := S5000x64) hz2, View.ld_unit_zero (S := S64x256) hz2,
    View.ld_unit_zero (S := S256x64) hz2, View.ld_unit_zero (S := S256) hz1, View.ld_unit_zero (S := S64) hz1]

/-- That stored value at (p, q) is the node update at row t·5000 + p. -/
theorem pay_is_update (c : Dev nD) (t : Fin cfg0.N) (p : Fin 5000) (q : Fin 64) :
    k0_pay1 (iblk m c 0 t) (iblk m c 1 t) (iblk m c 2 t) (iblk m c 3 t) (iblk m c 4 t) (iblk m c 5 t) (iblk m c 7 t)
        (iblk m c 6 t) (iblk m c 8 t) (ix2 p q)
      = result m c (ix2 (blockRow t.val (lt_ten t) p) q) :=
  block_update _ _ _ _ _ _ _ t.val (lt_ten t) (iblk m c 0 t) (iblk m c 1 t) (iblk m c 2 t) (iblk m c 3 t)
    (iblk m c 4 t) (iblk m c 5 t) (iblk m c 7 t) (iblk m c 6 t) (iblk m c 8 t)
    (byReceiver_rows m c t) (bySender_rows m c t) (node_rows m c t) (slab0_at m c t) (slab1_at m c t) (slab2_at m c t)
    (bias1_at m c t) (weight2_at m c t) (bias2_at m c t) p q

/-- WHAT POINT t WRITES BACK is block t of the node update. -/
theorem flushed_eq (c : Dev nD) (t : Fin cfg0.N) :
    (dats m 0 c).flushed 9 t = ((cfg0.win 9).blk t).view.read (Elt Ideal) (result m c) := by
  refine (Value.flushed9 m c t).trans ((cut_out t _).trans ((out_eq_pay m c t).trans ?_))
  funext j
  obtain ⟨p, q, rfl⟩ : ∃ (p : Fin 5000) (q : Fin 64), j = ix2 p q := ⟨j 0, j 1, eq_ix2 j⟩
  exact (pay_is_update m c t p q).trans (read_out c t (result m c) p q).symm

/-- An index of the result array is in point t's block iff each coordinate is in the block's range on its axis. -/
theorem mem_blk (t : Fin cfg0.N) (i : S50000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v9).slice (win0_9.rect t)).set ↔ _
  rw [View.set_slice_whole, Rect.mem_set_unit]
  exact Iff.rfl

/-- Row r of the result lies in the block of point r / 5000: the ten blocks cover the array. -/
theorem cover (i : S50000x64.Idx) :
    ∃ t : Fin cfg0.N, (cfg0.win 9).flush t = true ∧ i ∈ ((cfg0.win 9).blk t).view.set := by
  have hi0 : (i 0).val < 50000 := (i 0).isLt
  have hi1 : (i 1).val < 64 := (i 1).isLt
  have hN : cfg0.N = 10 := N_0
  have hlt : (i 0).val / 5000 < cfg0.N := by rw [hN]; omega
  obtain ⟨-, -, -, -, -, -, -, -, -, -, -, -, -, -, -, -, e0, e1⟩ := idx_facts ⟨(i 0).val / 5000, hlt⟩
  refine ⟨⟨(i 0).val / 5000, hlt⟩, flush0_9 _, ?_⟩
  rw [mem_blk]
  intro a
  match a with
  | ⟨0, _⟩ =>
    show win0_9.index ⟨(i 0).val / 5000, hlt⟩ (0 : Fin 2) * 5000 ≤ (i 0).val
      ∧ (i 0).val < win0_9.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, hlt⟩ (1 : Fin 2) * 64 ≤ (i 1).val
      ∧ (i 1).val < win0_9.index ⟨(i 0).val / 5000, hlt⟩ (1 : Fin 2) * 64 + 64
    rw [e1]
    omega

/-- THE RESULT ARRAY after the run is the node update. -/
theorem final (c : Dev nD) : (dats m 0 c).arrAt 9 cfg0.N = result m c :=
  (dats m 0 c).arrAt_eq_of_cover 9 (result m c) (fun t _ => flushed_eq m c t) cover

/-- The kernel's run: every weakly fair execution ends with the result array at the node update of the arguments as
    launched, the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.NodeUpdate

end
-- ==== Proof.ReferenceValue.lean ====
/-
  The reference's result is the node update (MlpSpec) of its arguments, index by index, at the ideal values.

  The reference sums the edge features by receiver and by sender (two scatter-additions into zeros, kept here as
  two opaque arrays: the kernel's host part forms the same two), lays them beside the node features as one
  50000 × 192 array, multiplies by the whole 192-row weight matrix, adds the bias, takes the maximum with zero,
  multiplies by the second matrix and adds the second bias.

  Columns 0..63 of the joined array are the first summed array, columns 64..127 the second, columns 128..191 the node
  features (`joined_slab0/1/2`). So the 192-term sum at (i, k) splits into the three 64-term sums of the node
  update (`MlpSpec.sum_three_slabs`); everything else is read off one operation at a time.
-/
import proofs.«120866_j69346541961223_2_alg».proof.Proof.Gen.ReferenceIdeal.Read
import proofs.«120866_j69346541961223_2_alg».proof.Proof.MlpSpec

noncomputable section

open scoped BigOperators

namespace Cert.ReferenceIdeal.RefValue

open Cert.ReferenceIdeal Cert.ReferenceIdeal.Gen Cert.ReferenceIdeal.Read Idealize.ShloMosaic Idealize.ShloMosaic.ValueIdx
  Cert.MlpSpec

variable (x0 : (⟨S50000x64, .f32⟩ : BufTy).Contents (Elt Ideal)) (x1 : (⟨S800000x64, .f32⟩ : BufTy).Contents (Elt Ideal))
  (x2 x3 : (⟨S800000, .i32⟩ : BufTy).Contents (Elt Ideal)) (x4 : (⟨S192x256, .f32⟩ : BufTy).Contents (Elt Ideal))
  (x5 : (⟨S256, .f32⟩ : BufTy).Contents (Elt Ideal)) (x6 : (⟨S256x64, .f32⟩ : BufTy).Contents (Elt Ideal))
  (x7 : (⟨S64, .f32⟩ : BufTy).Contents (Elt Ideal))

/-! ## The joined array, slab by slab -/

/-- Columns 0..63 of the joined array are the features summed by receiver. -/
theorem joined_slab0 (i : Fin 50000) (l : Fin 64) :
    val_main_v6 (F := Ideal) x0 x1 x2 x3 (ix2 i (slab0 l)) = val_main_v2 (F := Ideal) x1 x3 (ix2 i l) := by
  unfold val_main_v6
  exact concatenate_apply_piece (t := S50000x192) (1 : Fin 2) [⟨S50000x64, val_main_v2 (F := Ideal) x1 x3⟩, ⟨S50000x64, val_main_v5 (F := Ideal) x1 x2⟩, ⟨S50000x64, x0⟩]
    concatenates_S50000x64_S50000x64_S50000x64_S50000x192_d1 (ix2 i (slab0 l))
    0 (by simp) S50000x64 (val_main_v2 (F := Ideal) x1 x3) rfl rfl 0 rfl (ix2 i l)
    (fun b hb => by
      match b with
      | ⟨0, _⟩ => rfl
      | ⟨1, _⟩ => exact absurd rfl hb)
    (Nat.zero_add _)

/-- Columns 64..127 are the features summed by sender. -/
theorem joined_slab1 (i : Fin 50000) (l : Fin 64) :
    val_main_v6 (F := Ideal) x0 x1 x2 x3 (ix2 i (slab1 l)) = val_main_v5 (F := Ideal) x1 x2 (ix2 i l) := by
  unfold val_main_v6
  exact concatenate_apply_piece (t := S50000x192) (1 : Fin 2) [⟨S50000x64, val_main_v2 (F := Ideal) x1 x3⟩, ⟨S50000x64, val_main_v5 (F := Ideal) x1 x2⟩, ⟨S50000x64, x0⟩]
    concatenates_S50000x64_S50000x64_S50000x64_S50000x192_d1 (ix2 i (slab1 l))
    1 (by simp) S50000x64 (val_main_v5 (F := Ideal) x1 x2) rfl rfl 64 rfl (ix2 i l)
    (fun b hb => by
      match b with
      | ⟨0, _⟩ => rfl
      | ⟨1, _⟩ => exact absurd rfl hb)
    rfl

/-- Columns 128..191 are the node features. -/
theorem joined_slab2 (i : Fin 50000) (l : Fin 64) :
    val_main_v6 (F := Ideal) x0 x1 x2 x3 (ix2 i (slab2 l)) = x0 (ix2 i l) := by
  unfold val_main_v6
  exact concatenate_apply_piece (t := S50000x192) (1 : Fin 2) [⟨S50000x64, val_main_v2 (F := Ideal) x1 x3⟩, ⟨S50000x64, val_main_v5 (F := Ideal) x1 x2⟩, ⟨S50000x64, x0⟩]
    concatenates_S50000x64_S50000x64_S50000x64_S50000x192_d1 (ix2 i (slab2 l))
    2 (by simp) S50000x64 x0 rfl rfl 128 rfl (ix2 i l)
    (fun b hb => by
      match b with
      | ⟨0, _⟩ => rfl
      | ⟨1, _⟩ => exact absurd rfl hb)
    rfl

/-! ## The hidden layer and the result -/

/-- The reference's hidden array at (i, k) is the node update's hidden value: the 192-term sum is the three slab sums. -/
theorem hidden_eq (i : Fin 50000) (k : Fin 256) :
    val_main_v11 (F := Ideal) x0 x1 x2 x3 x4 x5 (ix2 i k)
      = hidden (val_main_v2 (F := Ideal) x1 x3) (val_main_v5 (F := Ideal) x1 x2) x0 x4 x5 i k := by
  have el : ∀ l : Fin 192, lidx_main_v7 (ix2 i k) l = ix2 i l := fun l => funext fun a => Fin.ext (by
    match a with
    | ⟨0, _⟩ => rfl
    | ⟨1, _⟩ => rfl)
  have er : ∀ l : Fin 192, ridx_main_v7 (ix2 i k) l = ix2 l k := fun l => funext fun a => Fin.ext (by
    match a with
    | ⟨0, _⟩ => rfl
    | ⟨1, _⟩ => rfl)
  have eb : idx_main_v8 (idx_main_v9 (ix2 i k)) = ix1 k := funext fun a => Fin.ext (by
    match a with
    | ⟨0, _⟩ => rfl)
  rw [val_main_v11_apply, val_main_v10_apply, val_main_v7_apply, val_main_v9_apply, val_main_v8_apply,
    val_main_call0_v0_apply, val_main_call0_cst_apply]
  simp only [el, er, eb]
  rw [sum_three_slabs]
  simp only [joined_slab0, joined_slab1, joined_slab2]
  rfl

/-- THE REFERENCE IS THE NODE UPDATE of: the features summed by receiver, summed by sender, the node features, the two
    weight matrices and the two biases. -/
theorem result_eq :
    val_main_v15 (F := Ideal) x0 x1 x2 x3 x4 x5 x6 x7
      = update (val_main_v2 (F := Ideal) x1 x3) (val_main_v5 (F := Ideal) x1 x2) x0 x4 x5 x6 x7 := by
  funext j
  obtain ⟨i, q, rfl⟩ : ∃ (i : Fin 50000) (q : Fin 64), j = ix2 i q := ⟨j 0, j 1, eq_ix2 j⟩
  have el : ∀ k : Fin 256, lidx_main_v12 (ix2 i q) k = ix2 i k := fun k => funext fun a => Fin.ext (by
    match a with
    | ⟨0, _⟩ => rfl
    | ⟨1, _⟩ => rfl)
  have er : ∀ k : Fin 256, ridx_main_v12 (ix2 i q) k = ix2 k q := fun k => funext fun a => Fin.ext (by
    match a with
    | ⟨0, _⟩ => rfl
    | ⟨1, _⟩ => rfl)
  have eb : idx_main_v13 (idx_main_v14 (ix2 i q)) = ix1 q := funext fun a => Fin.ext (by
    match a with
    | ⟨0, _⟩ => rfl)
  rw [update_apply, val_main_v15_apply, val_main_v12_apply, val_main_v14_apply, val_main_v13_apply]
  simp only [el, er, eb, hidden_eq]
  rfl

end Cert.ReferenceIdeal.RefValue

end
-- ==== Proof.lean ====
/-
  The kernel and its reference compute the same node update, on the extended reals.

  Both programs sum the edge features (800000 × 64) into 50000 buckets twice — by receiver and by sender: the same
  scatter-addition into zeros on both sides — and then update every node from three rows of 64 numbers (the two sums
  and the node's own features) through two dense layers with a maximum with zero between them.

  The reference lays the three rows side by side (50000 × 192) and multiplies once by the 192-row weight matrix. The
  kernel cuts the weight matrix into its three slabs of 64 rows on the host, and for each block of 5000 nodes forms
  three 64-term products and adds them; it narrows the matrices to bf16 first, which on the extended reals changes
  nothing. A sum over 192 rows is the sum of the three sums over 64 rows in any additive commutative monoid
  (Proof/MlpSpec.lean), so the two results agree at every index and no entry has to be finite: the precondition is never
  opened.

  Proof/MlpSpec.lean states the node update as one function of the arrays; Proof/KernelBlock.lean reads the kernel
  body's value on one block at an index; Proof/KernelValue.lean carries that from the ten blocks to the whole result
  array; Proof/ReferenceValue.lean reads the reference's result as the same function. Here the two summed arrays of
  the two sides are identified (`summed_byReceiver`, `summed_bySender`) and the five claims assembled. The idealized
  kernel is the kernel's own text read at the ideal values (no operation was rewritten), so that claim is trivial.
-/
import proofs.«120866_j69346541961223_2_alg».proof.Defs
import proofs.«120866_j69346541961223_2_alg».proof.Proof.Gen.Kernel
import proofs.«120866_j69346541961223_2_alg».proof.Proof.Gen.Kernel.Skeleton
import proofs.«120866_j69346541961223_2_alg».proof.Proof.Gen.Kernel.Launch
import proofs.«120866_j69346541961223_2_alg».proof.Proof.Gen.Kernel.Points
import proofs.«120866_j69346541961223_2_alg».proof.Proof.Gen.Kernel.Frame
import proofs.«120866_j69346541961223_2_alg».proof.Proof.Gen.KernelIdeal
import proofs.«120866_j69346541961223_2_alg».proof.Proof.Gen.KernelIdeal.Skeleton
import proofs.«120866_j69346541961223_2_alg».proof.Proof.Gen.KernelIdeal.Launch
import proofs.«120866_j69346541961223_2_alg».proof.Proof.Gen.KernelIdeal.Points
import proofs.«120866_j69346541961223_2_alg».proof.Proof.Gen.KernelIdeal.Frame
import proofs.«120866_j69346541961223_2_alg».proof.Proof.Gen.ReferenceIdeal
import proofs.«120866_j69346541961223_2_alg».proof.Proof.Gen.KernelIdeal.Value
import proofs.«120866_j69346541961223_2_alg».proof.Proof.Gen.ReferenceIdeal.Run
import proofs.«120866_j69346541961223_2_alg».proof.Proof.Gen.ReferenceIdeal.Read
import proofs.«120866_j69346541961223_2_alg».proof.Proof.Gen.Pre_finite_inputs
import proofs.«120866_j69346541961223_2_alg».proof.Proof.KernelValue
import proofs.«120866_j69346541961223_2_alg».proof.Proof.ReferenceValue
import Idealize.ShloMosaic.Adequacy
import Idealize.ShloMosaic.Init

noncomputable section

namespace Cert.Proof

open Idealize.ShloMosaic Idealize.SL.Sem

/-- The features summed by receiver: the kernel's host part and the reference form them by the same scatter-addition
    into zeros (same dimension numbers, same operands). -/
theorem summed_byReceiver (x1 : (⟨Cert.KernelIdeal.S800000x64, .f32⟩ : BufTy).Contents (Elt Ideal))
    (ids : (⟨Cert.KernelIdeal.S800000, .i32⟩ : BufTy).Contents (Elt Ideal)) :
    Cert.ReferenceIdeal.Read.val_main_v2 (F := Ideal) x1 ids = Cert.KernelIdeal.NodeUpdate.summed x1 ids := rfl

/-- The features summed by sender, likewise. -/
theorem summed_bySender (x1 : (⟨Cert.KernelIdeal.S800000x64, .f32⟩ : BufTy).Contents (Elt Ideal))
    (ids : (⟨Cert.KernelIdeal.S800000, .i32⟩ : BufTy).Contents (Elt Ideal)) :
    Cert.ReferenceIdeal.Read.val_main_v5 (F := Ideal) x1 ids = Cert.KernelIdeal.NodeUpdate.summed x1 ids := rfl

/-- The kernel as printed runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a list of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- From memories that agree on the arguments both programs end with the node update of those arguments in their
    result arrays: the kernel's by its ten blocks, the reference's by its operations read one at a time. -/
theorem algebraic : Cert.algebraic_KernelIdeal_ReferenceIdeal := by
  intro m ρ m' ρ' _ hagree
  refine ⟨_, Cert.KernelIdeal.NodeUpdate.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v15_eq, Cert.ReferenceIdeal.RefValue.result_eq, summed_byReceiver,
    summed_bySender, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
